-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32x512x1024 .f32) (main_arg1 : FVec F S1024x4096 .f32) (main_arg2 : FVec F S4096 .f32) (main_arg3 : FVec F S4096x1024 .f32) (main_arg4 : FVec F S1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S32x512x1024 : Shape := ⟨3, ![32, 512, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 12
  | .vmem => 8
  | .smem => 0
  | _ => 0

abbrev bufTy : (tb : Table) → Fin (tcTables nBuf tb) → BufTy
  | .hbm, ⟨0, _⟩ => ⟨S32x512x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x4096, .f32⟩
  | .hbm, ⟨9, _⟩ => ⟨S1x1024, .f32⟩
  | .hbm, ⟨10, _⟩ => ⟨S16384x1024, .f32⟩
  | .hbm, ⟨11, _⟩ => ⟨S32x512x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x1024_S16384x1024 : S32x512x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S32x512x1024 : S16384x1024.ShapeCasts S32x512x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16384x1024 : Shape := ⟨2, ![16384, 1024]⟩
abbrev S1x1024 : Shape := ⟨2, ![1, 1024]⟩
abbrev S1x4096 : Shape := ⟨2, ![1, 4096]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S32x512x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1x4096, .f32⟩
  | .hbm, ⟨8, _⟩ => ⟨S16384x1024, .f32⟩
  | .hbm, ⟨9, _⟩ => ⟨S32x512x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S32x512x1024_S16384x1024 : S32x512x1024.ShapeCasts S16384x1024
  shapeCasts_S1024_S1x1024 : S1024.ShapeCasts S1x1024
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S32x512x1024 : S16384x1024.ShapeCasts S32x512x1024
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== Proof.Spec.lean ====
/-
  The specification of a position-wise feed-forward block over the extended reals.

  For a row (b, p) of the activations x : [32, 512, 1024] and a hidden unit f < 4096 the hidden activation is
      hid b p f = max (Σ_{d < 1024} x[b,p,d] · w1[d,f] + b1[f]) 0,
  and the block's result at column c < 1024 is
      ffn b p c = Σ_{f < 4096} hid b p f · w2[f,c] + b2[c].
  One program computes the sum over f in one pass; the other walks the hidden axis in 8 tiles of 512 units, keeping the
  running sum of the tiles' partial sums ("tile j" is the units 512·j … 512·j + 511). Both are the same extended
  real: addition of extended reals is associative and commutative (the sum over f is a sum in a commutative monoid), so the
  regrouping needs no finiteness of the inputs.
-/
import Idealize.ShloMosaic.PureOps.Ideal
import Idealize.ShloMosaic.Lib.ValueIdx

noncomputable section

open scoped BigOperators

namespace Cert.FeedForward

open Idealize.ShloMosaic Idealize.ShloMosaic.ValueIdx

/-- The argument arrays' shapes and the result's. -/
abbrev SX : Shape := ⟨3, ![32, 512, 1024]⟩
abbrev SW1 : Shape := ⟨2, ![1024, 4096]⟩
abbrev SB1 : Shape := ⟨1, ![4096]⟩
abbrev SW2 : Shape := ⟨2, ![4096, 1024]⟩
abbrev SB2 : Shape := ⟨1, ![1024]⟩

/-- The hidden activation of row (b, p) at unit f: the first affine map followed by the positive part. -/
def hid (x : SX.Idx → EReal) (w1 : SW1.Idx → EReal) (b1 : SB1.Idx → EReal) (b : Fin 32) (p : Fin 512) (f : Fin 4096) : EReal :=
  max ((∑ d : Fin 1024, x (ix3 b p d) * w1 (ix2 d f)) + b1 (ix1 f)) 0

/-- One hidden unit's contribution to column c of row (b, p). -/
def term (x : SX.Idx → EReal) (w1 : SW1.Idx → EReal) (b1 : SB1.Idx → EReal) (w2 : SW2.Idx → EReal)
    (b : Fin 32) (p : Fin 512) (c : Fin 1024) (f : Fin 4096) : EReal :=
  hid x w1 b1 b p f * w2 (ix2 f c)

/-- The block's result at row (b, p), column c: all 4096 contributions summed, plus the output bias. -/
def ffnAt (x : SX.Idx → EReal) (w1 : SW1.Idx → EReal) (b1 : SB1.Idx → EReal) (w2 : SW2.Idx → EReal) (b2 : SB2.Idx → EReal)
    (b : Fin 32) (p : Fin 512) (c : Fin 1024) : EReal :=
  (∑ f : Fin 4096, term x w1 b1 w2 b p c f) + b2 (ix1 c)

/-- The block's result as one array of the five argument arrays. -/
def ffn (x : SX.Idx → EReal) (w1 : SW1.Idx → EReal) (b1 : SB1.Idx → EReal) (w2 : SW2.Idx → EReal) (b2 : SB2.Idx → EReal) :
    SX.Idx → EReal :=
  fun i => ffnAt x w1 b1 w2 b2 (i 0) (i 1) (i 2)

/-- Hidden unit k of tile j (total in j: taken modulo 4096, which changes nothing for j < 8). -/
def unit (j : ℕ) (k : Fin 512) : Fin 4096 := ⟨(512 * j + k.val) % 4096, Nat.mod_lt _ (by decide)⟩

theorem unit_val (j : ℕ) (hj : j < 8) (k : Fin 512) : (unit j k).val = 512 * j + k.val := by
  have := k.isLt
  show (512 * j + k.val) % 4096 = _
  exact Nat.mod_eq_of_lt (by omega)

/-- Tile j's partial sum of a family over the hidden axis. -/
def tileSum (g : Fin 4096 → EReal) (j : ℕ) : EReal := ∑ k : Fin 512, g (unit j k)

/-- The running sum after tiles 0 … n. -/
def runSum (g : Fin 4096 → EReal) (n : ℕ) : EReal := ∑ j ∈ Finset.range (n + 1), tileSum g j

theorem runSum_zero (g : Fin 4096 → EReal) : runSum g 0 = tileSum g 0 := by
  simp [runSum]

theorem runSum_succ (g : Fin 4096 → EReal) (n : ℕ) : runSum g (n + 1) = runSum g n + tileSum g (n + 1) := by
  unfold runSum
  rw [Finset.sum_range_succ]

end Cert.FeedForward

end
-- ==== Proof.KernelContract.lean ====
/-
  The two contractions of the feed-forward block, each read at one entry of its result.

  Both are plain matrix products into a zero accumulator: rows by the contracted axis, times the contracted axis by
  columns. Over the extended reals such a product at entry (p, q) is the sum, over the contracted coordinate k, of the left
  factor at (p, k) times the right factor at (k, q). The library states the sum over the contraction's own index type
  and names the operands' indices by the dimension numbers; here the sum is re-indexed by the one contracted coordinate and
  each operand index is named coordinate by coordinate: a free axis keeps the result's coordinate, the contracted axis takes k.
-/
import proofs.«119623_g2000404091723755_pallasbulk_1092_2_alg».proof.Proof.Gen.KernelIdeal
import Idealize.ShloMosaic.PureOps.Ideal.Laws
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The first product's dimension numbers: [512, 1024] by [1024, 4096]. -/
abbrev dotUp : DotDims S512x1024 S1024x4096 S512x4096 := dot_S512x1024_S1024x4096_S512x4096_1_0_0_1_n_n
/-- The second product's: [512, 4096] by [4096, 1024]. -/
abbrev dotDown : DotDims S512x4096 S4096x1024 S512x1024 := dot_S512x4096_S4096x1024_S512x1024_1_0_0_1_n_n

/-! ## The first product's operand indices -/

theorem up_lhs_row (i : S512x4096.Idx) (q : dotUp.contr.Idx) : (dotUp.lhsIdx i q 0).val = (i 0).val := by
  unfold DotDims.lhsIdx
  rw [dif_neg (show ¬(0 : Fin S512x1024.rank) ∈ dotUp.lhsBatch by decide),
    dif_pos (show (0 : Fin S512x1024.rank) ∈ dotUp.lhsNonContracting by decide)]
  rfl

theorem up_lhs_inner (i : S512x4096.Idx) (q : dotUp.contr.Idx) : (dotUp.lhsIdx i q 1).val = (q ⟨0, by decide⟩).val :=
  dotUp.lhsIdx_val_of_single rfl i q

theorem up_rhs_inner (i : S512x4096.Idx) (q : dotUp.contr.Idx) : (dotUp.rhsIdx i q 0).val = (q ⟨0, by decide⟩).val :=
  dotUp.rhsIdx_val_of_single rfl i q

theorem up_rhs_col (i : S512x4096.Idx) (q : dotUp.contr.Idx) : (dotUp.rhsIdx i q 1).val = (i 1).val := by
  unfold DotDims.rhsIdx
  rw [dif_neg (show ¬(1 : Fin S1024x4096.rank) ∈ dotUp.rhsBatch by decide),
    dif_pos (show (1 : Fin S1024x4096.rank) ∈ dotUp.rhsNonContracting by decide)]
  rfl

/-- The first product at entry (p, f): the sum over the 1024 input features. -/
theorem up_apply (a : FVec Ideal S512x1024 .bf16) (b : FVec Ideal S1024x4096 .bf16) (p : Fin 512) (f : Fin 4096) :
    matmul dotUp none a b (constant S512x4096 .f32 0x00000000#32) (ix2 p f) = ∑ d : Fin 1024, a (ix2 p d) * b (ix2 d f) := by
  simp only [matmul]
  rw [Ideal.matmul_constant_zero_apply, ← Equiv.sum_comp (contrEquiv1 dotUp 1024 rfl rfl).symm]
  refine Finset.sum_congr rfl fun k _ => ?_
  have hk := contrEquiv1_symm_val dotUp 1024 rfl rfl k
  have el : dotUp.lhsIdx (ix2 p f) ((contrEquiv1 dotUp 1024 rfl rfl).symm k) = ix2 p k := funext fun ax => Fin.ext (by
    match ax with
    | ⟨0, _⟩ => exact up_lhs_row _ _
    | ⟨1, _⟩ => exact (up_lhs_inner _ _).trans hk)
  have er : dotUp.rhsIdx (ix2 p f) ((contrEquiv1 dotUp 1024 rfl rfl).symm k) = ix2 k f := funext fun ax => Fin.ext (by
    match ax with
    | ⟨0, _⟩ => exact (up_rhs_inner _ _).trans hk
    | ⟨1, _⟩ => exact up_rhs_col _ _)
  rw [el, er]

/-! ## The second product's operand indices -/

theorem down_lhs_row (i : S512x1024.Idx) (q : dotDown.contr.Idx) : (dotDown.lhsIdx i q 0).val = (i 0).val := by
  unfold DotDims.lhsIdx
  rw [dif_neg (show ¬(0 : Fin S512x4096.rank) ∈ dotDown.lhsBatch by decide),
    dif_pos (show (0 : Fin S512x4096.rank) ∈ dotDown.lhsNonContracting by decide)]
  rfl

theorem down_lhs_inner (i : S512x1024.Idx) (q : dotDown.contr.Idx) : (dotDown.lhsIdx i q 1).val = (q ⟨0, by decide⟩).val :=
  dotDown.lhsIdx_val_of_single rfl i q

theorem down_rhs_inner (i : S512x1024.Idx) (q : dotDown.contr.Idx) : (dotDown.rhsIdx i q 0).val = (q ⟨0, by decide⟩).val :=
  dotDown.rhsIdx_val_of_single rfl i q

theorem down_rhs_col (i : S512x1024.Idx) (q : dotDown.contr.Idx) : (dotDown.rhsIdx i q 1).val = (i 1).val := by
  unfold DotDims.rhsIdx
  rw [dif_neg (show ¬(1 : Fin S4096x1024.rank) ∈ dotDown.rhsBatch by decide),
    dif_pos (show (1 : Fin S4096x1024.rank) ∈ dotDown.rhsNonContracting by decide)]
  rfl

/-- The second product at entry (p, c): the sum over the 4096 hidden units. -/
theorem down_apply (a : FVec Ideal S512x4096 .bf16) (b : FVec Ideal S4096x1024 .bf16) (p : Fin 512) (c : Fin 1024) :
    matmul dotDown none a b (constant S512x1024 .f32 0x00000000#32) (ix2 p c) = ∑ f : Fin 4096, a (ix2 p f) * b (ix2 f c) := by
  simp only [matmul]
  rw [Ideal.matmul_constant_zero_apply, ← Equiv.sum_comp (contrEquiv1 dotDown 4096 rfl rfl).symm]
  refine Finset.sum_congr rfl fun k _ => ?_
  have hk := contrEquiv1_symm_val dotDown 4096 rfl rfl k
  have el : dotDown.lhsIdx (ix2 p c) ((contrEquiv1 dotDown 4096 rfl rfl).symm k) = ix2 p k := funext fun ax => Fin.ext (by
    match ax with
    | ⟨0, _⟩ => exact down_lhs_row _ _
    | ⟨1, _⟩ => exact (down_lhs_inner _ _).trans hk)
  have er : dotDown.rhsIdx (ix2 p c) ((contrEquiv1 dotDown 4096 rfl rfl).symm k) = ix2 k c := funext fun ax => Fin.ext (by
    match ax with
    | ⟨0, _⟩ => exact (down_rhs_inner _ _).trans hk
    | ⟨1, _⟩ => exact down_rhs_col _ _)
  rw [el, er]

end Cert.KernelIdeal.Hand

end
-- ==== Proof.KernelPayload.lean ====
/-
  What the body of the feed-forward block stores, read at one entry of its tile.

  The body sees a tile of 512 rows of the activations (x0), the whole first weight matrix (x1), the first bias as one row
  (x2), the whole second weight matrix (x3) and the second bias as one row (x4). It forms x0 · x1 into a zero
  accumulator, adds the bias row to every row, takes the positive part against the zero word, forms that times x3 into
  a zero accumulator, and adds the second bias row. Over the extended reals the narrowing of a factor to a shorter float
  format changes nothing, the zero word is the number 0, and a product into a zero accumulator is the plain sum over the
  contracted coordinate, so entry (p, c) of the stored tile is

      Σ_{f < 4096} max (Σ_{d < 1024} x0[p,d] · x1[d,f] + x2[0,f]) 0 · x3[f,c]  +  x4[0,c].
-/
import proofs.«119623_g2000404091723755_pallasbulk_1092_2_alg».proof.Proof.Gen.KernelIdeal.Skeleton
import proofs.«119623_g2000404091723755_pallasbulk_1092_2_alg».proof.Proof.KernelContract
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The stored tile at row p, column c, for any contents of the five blocks the body loads. -/
theorem pay_apply (x0 : Vec Ideal S512x1024 .f32) (x1 : Vec Ideal S1024x4096 .bf16) (x2 : Vec Ideal S1x4096 .f32)
    (x3 : Vec Ideal S4096x1024 .bf16) (x4 : Vec Ideal S1x1024 .f32) (p : Fin 512) (c : Fin 1024) :
    k0_pay1 (F := Ideal) x0 x1 x2 x3 x4 (ix2 p c)
      = (∑ f : Fin 4096, max ((∑ d : Fin 1024, (x0 (ix2 p d) : EReal) * (x1 (ix2 d f) : EReal)) + (x2 (ix2 0 f) : EReal)) 0
          * (x3 (ix2 f c) : EReal)) + (x4 (ix2 0 c) : EReal) := by
  unfold k0_pay1
  -- the casts of a block to its own shape are the identity
  simp only [shapeCast_self]
  -- the last addition, entry by entry: the second product plus the bias row
  refine (addf_apply _ _ _).trans ?_
  rw [down_apply, broadcastTo_1b_ab_apply]
  refine congrArg (· + _) (Finset.sum_congr rfl fun f _ => ?_)
  refine congrArg (· * _) ?_
  -- one hidden unit: the positive part of the first product plus its bias
  show max ((matmul (F := Ideal) dotUp none (truncf .bf16 x0 bitsLt_bf16_f32) x1 (constant (F := Ideal) S512x4096 .f32 0x00000000#32) (ix2 p f) : EReal)
      + (broadcastTo S512x4096 x2 broadcasts_S1x4096_S512x4096 (ix2 p f) : EReal)) (Ideal.ofBits .f32 0x00000000#32) = _
  rw [up_apply, broadcastTo_1b_ab_apply, Ideal.ofBits_zero_f32]
  rfl

end Cert.KernelIdeal.Hand

end
-- ==== Proof.KernelInputs.lean ====
/-
  The five arrays the kernel's windows stage, and each window's block at a grid point, as entries of the arguments.

  Before the call the program lays the arguments out for the kernel: the activations [32, 512, 1024] become one matrix of
  16384 rows (row 512·b + p is row p of batch entry b), the two weight matrices are narrowed to a shorter float format
  (over the extended reals that changes nothing), and each bias vector becomes a one-row matrix. The grid has 32 points;
  at point t the activations' window holds rows 512·t … 512·t + 511 of that matrix, that is batch entry t, and the
  other four windows hold their whole arrays at every point.
-/
import proofs.«119623_g2000404091723755_pallasbulk_1092_2_alg».proof.Proof.Gen.KernelIdeal.Frame
import proofs.«119623_g2000404091723755_pallasbulk_1092_2_alg».proof.Proof.Spec
import Idealize.ShloMosaic.Lib.Pipeline.Value
import Idealize.ShloMosaic.Lib.ValueLayout

noncomputable section

namespace Cert.KernelIdeal.Hand

open Cert.KernelIdeal Cert.KernelIdeal.Gen Cert.FeedForward
open Idealize.ShloMosaic Idealize.ShloMosaic.ValueIdx Idealize.ShloMosaic.TcCoe Idealize.SL.Sem

variable (m : (ℓ : Loc nD τ sig) → Buf (Elt Ideal) ℓ)

/-! ## The staged arrays -/

/-- The activations as the kernel finds them: the argument re-laid as 16384 rows. -/
theorem staged_x (c : Dev nD) : (V m c main_v0 : S16384x1024.Idx → EReal)
    = shapeCast S16384x1024 (m ((c.tc : Thread nD τ).loc main_arg0) : S32x512x1024.Idx → EReal) shapeCasts_S32x512x1024_S16384x1024 := by
  show StableHlo.after hostOps0 (fun b => m (c, b)) (Proc.devRef .tc main_v0) = _
  after_results
  rfl

/-- The first weight matrix as the kernel finds it: the argument itself. -/
theorem staged_w1 (c : Dev nD) : (V m c main_v1 : S1024x4096.Idx → EReal)
    = (m ((c.tc : Thread nD τ).loc main_arg1) : S1024x4096.Idx → EReal) := by
  show StableHlo.after hostOps0 (fun b => m (c, b)) (Proc.devRef .tc main_v1) = _
  after_results
  rfl

/-- The second weight matrix as the kernel finds it: the argument itself. -/
theorem staged_w2 (c : Dev nD) : (V m c main_v2 : S4096x1024.Idx → EReal)
    = (m ((c.tc : Thread nD τ).loc main_arg3) : S4096x1024.Idx → EReal) := by
  show StableHlo.after hostOps0 (fun b => m (c, b)) (Proc.devRef .tc main_v2) = _
  after_results
  rfl

/-- The first bias as the kernel finds it: the argument as one row. -/
theorem staged_b1 (c : Dev nD) : (V m c main_v3 : S1x4096.Idx → EReal)
    = shapeCast S1x4096 (m ((c.tc : Thread nD τ).loc main_arg2) : S4096.Idx → EReal) shapeCasts_S4096_S1x4096 := by
  show StableHlo.after hostOps0 (fun b => m (c, b)) (Proc.devRef .tc main_v3) = _
  after_results
  rfl

/-- The second bias as the kernel finds it: the argument as one row. -/
theorem staged_b2 (c : Dev nD) : (V m c main_v4 : S1x1024.Idx → EReal)
    = shapeCast S1x1024 (m ((c.tc : Thread nD τ).loc main_arg4) : S1024.Idx → EReal) shapeCasts_S1024_S1x1024 := by
  show StableHlo.after hostOps0 (fun b => m (c, b)) (Proc.devRef .tc main_v4) = _
  after_results
  rfl

/-! ## Where each window's block sits, at every grid point -/

/-- The activations' window and the result's window are at block row t, block column 0; the other four windows are at
    block (0, 0). Decided over the 32 points. -/
theorem block_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point as a batch entry: there are 32 of each. -/
def batchOf (t : Fin cfg0.N) : Fin 32 := ⟨t.val, lt_of_lt_of_eq t.isLt N_0⟩

theorem batchOf_val (t : Fin cfg0.N) : (batchOf t).val = t.val := rfl

/-! ## The blocks at a point -/

/-- The activations' block at point t, entry (p, d), is the argument at batch entry t, row p, feature d. -/
theorem blk_x (c : Dev nD) (t : Fin cfg0.N) (p : Fin 512) (d : Fin 1024) :
    (iblk m c 0 t : Vec Ideal S512x1024 .f32) (ix2 p d)
      = (m ((c.tc : Thread nD τ).loc main_arg0) : SX.Idx → EReal) (ix3 (batchOf t) p d) := by
  obtain ⟨e0, e1, -⟩ := block_at t
  unfold iblk
  rw [View.read_apply]
  show V m c main_v0 _ = _
  rw [staged_x]
  refine shapeCast_apply _ _ _ _ ?_
  show (S32x512x1024.rowMajor (ix3 (batchOf t) p d)).val = (S16384x1024.rowMajor (((cfg0.win 0).blk t).view.emb (ix2 p d))).val
  rw [Shape.rowMajor_val_three, Shape.rowMajor_val_two]
  show (t.val * 512 + p.val) * 1024 + d.val
    = (win0_0.index t (0 : Fin 2) * 512 + 1 * p.val) * 1024 + (win0_0.index t (1 : Fin 2) * 1024 + 1 * d.val)
  rw [e0, e1]
  omega

/-- The first weight matrix's block at any point is the whole argument. -/
theorem blk_w1 (c : Dev nD) (t : Fin cfg0.N) (d : Fin 1024) (f : Fin 4096) :
    (iblk m c 1 t : Vec Ideal S1024x4096 .bf16) (ix2 d f)
      = (m ((c.tc : Thread nD τ).loc main_arg1) : SW1.Idx → EReal) (ix2 d f) := by
  obtain ⟨-, -, e0, e1, -⟩ := block_at t
  unfold iblk
  rw [View.read_apply]
  show V m c main_v1 _ = _
  rw [staged_w1]
  refine congrArg _ (funext fun a => Fin.ext ?_)
  match a with
  | ⟨0, _⟩ => show win0_1.index t (0 : Fin 2) * 1024 + 1 * d.val = d.val; rw [e0]; omega
  | ⟨1, _⟩ => show win0_1.index t (1 : Fin 2) * 4096 + 1 * f.val = f.val; rw [e1]; omega

/-- The first bias's block at any point is the argument as one row. -/
theorem blk_b1 (c : Dev nD) (t : Fin cfg0.N) (u : Fin 1) (f : Fin 4096) :
    (iblk m c 2 t : Vec Ideal S1x4096 .f32) (ix2 u f)
      = (m ((c.tc : Thread nD τ).loc main_arg2) : SB1.Idx → EReal) (ix1 f) := by
  obtain ⟨-, -, -, -, e0, e1, -⟩ := block_at t
  have hu : u.val = 0 := by omega
  unfold iblk
  rw [View.read_apply]
  show V m c main_v3 _ = _
  rw [staged_b1]
  refine shapeCast_apply _ _ _ _ ?_
  show (S4096.rowMajor (ix1 f)).val = (S1x4096.rowMajor (((cfg0.win 2).blk t).view.emb (ix2 u f))).val
  rw [Shape.rowMajor_val_one, Shape.rowMajor_val_two]
  show f.val = (win0_2.index t (0 : Fin 2) * 1 + 1 * u.val) * 4096 + (win0_2.index t (1 : Fin 2) * 4096 + 1 * f.val)
  rw [e0, e1, hu]
  omega

/-- The second weight matrix's block at any point is the whole argument. -/
theorem blk_w2 (c : Dev nD) (t : Fin cfg0.N) (f : Fin 4096) (q : Fin 1024) :
    (iblk m c 3 t : Vec Ideal S4096x1024 .bf16) (ix2 f q)
      = (m ((c.tc : Thread nD τ).loc main_arg3) : SW2.Idx → EReal) (ix2 f q) := by
  obtain ⟨-, -, -, -, -, -, e0, e1, -⟩ := block_at t
  unfold iblk
  rw [View.read_apply]
  show V m c main_v2 _ = _
  rw [staged_w2]
  refine congrArg _ (funext fun a => Fin.ext ?_)
  match a with
  | ⟨0, _⟩ => show win0_3.index t (0 : Fin 2) * 4096 + 1 * f.val = f.val; rw [e0]; omega
  | ⟨1, _⟩ => show win0_3.index t (1 : Fin 2) * 1024 + 1 * q.val = q.val; rw [e1]; omega

/-- The second bias's block at any point is the argument as one row. -/
theorem blk_b2 (c : Dev nD) (t : Fin cfg0.N) (u : Fin 1) (q : Fin 1024) :
    (iblk m c 4 t : Vec Ideal S1x1024 .f32) (ix2 u q)
      = (m ((c.tc : Thread nD τ).loc main_arg4) : SB2.Idx → EReal) (ix1 q) := by
  obtain ⟨-, -, -, -, -, -, -, -, e0, e1, -⟩ := block_at t
  have hu : u.val = 0 := by omega
  unfold iblk
  rw [View.read_apply]
  show V m c main_v4 _ = _
  rw [staged_b2]
  refine shapeCast_apply _ _ _ _ ?_
  show (S1024.rowMajor (ix1 q)).val = (S1x1024.rowMajor (((cfg0.win 4).blk t).view.emb (ix2 u q))).val
  rw [Shape.rowMajor_val_one, Shape.rowMajor_val_two]
  show q.val = (win0_4.index t (0 : Fin 2) * 1 + 1 * u.val) * 1024 + (win0_4.index t (1 : Fin 2) * 1024 + 1 * q.val)
  rw [e0, e1, hu]
  omega

end Cert.KernelIdeal.Hand

end
-- ==== Proof.KernelBlocks.lean ====
/-
  From the tiles to the whole output array.

  The kernel's grid has 32 points. At point t the body stores one tile of 512 rows; the pipeline writes that tile back as
  rows 512·t … 512·t + 511 of a matrix of 16384 rows. Seen as one function of the five arguments, that matrix has in row
  r = 512·b + p the block's result for row p of batch entry b. Here: each point writes back exactly its block of that one
  matrix (the loaded blocks are the arguments' entries of batch entry t, and the stored tile is the body's formula of
  them), the 32 blocks cover every row (row r is in the block of point r / 512), and so the array ends holding the
  matrix.
-/
import proofs.«119623_g2000404091723755_pallasbulk_1092_2_alg».proof.Proof.Gen.KernelIdeal.Frame
import proofs.«119623_g2000404091723755_pallasbulk_1092_2_alg».proof.Proof.Spec
import proofs.«119623_g2000404091723755_pallasbulk_1092_2_alg».proof.Proof.KernelPayload
import proofs.«119623_g2000404091723755_pallasbulk_1092_2_alg».proof.Proof.KernelInputs
import Idealize.ShloMosaic.Lib.Pipeline.Value

noncomputable section

open scoped BigOperators

namespace Cert.KernelIdeal.Hand

open Cert.KernelIdeal Cert.KernelIdeal.Gen Cert.FeedForward
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem origin2 : (![0, 0] : Fin 2 → Nat) = fun _ => 0 := funext fun a => by fin_cases a <;> rfl

/-- The block's result as one matrix of 16384 rows: row r is row r % 512 of batch entry r / 512. -/
def rows (x : SX.Idx → EReal) (w1 : SW1.Idx → EReal) (b1 : SB1.Idx → EReal) (w2 : SW2.Idx → EReal) (b2 : SB2.Idx → EReal) :
    S16384x1024.Idx → EReal := fun i =>
  ffnAt x w1 b1 w2 b2 ⟨(i 0).val / 512, by have := idx2_lt0 i; omega⟩ ⟨(i 0).val % 512, Nat.mod_lt _ (by decide)⟩ ⟨(i 1).val, idx2_lt1 i⟩

/-- That matrix at an entry whose row is named as 512·b + p. -/
theorem rows_apply (x : SX.Idx → EReal) (w1 : SW1.Idx → EReal) (b1 : SB1.Idx → EReal) (w2 : SW2.Idx → EReal) (b2 : SB2.Idx → EReal)
    (i : S16384x1024.Idx) (b : Fin 32) (p : Fin 512) (q : Fin 1024)
    (h0 : (i 0).val = 512 * b.val + p.val) (h1 : (i 1).val = q.val) :
    rows x w1 b1 w2 b2 i = ffnAt x w1 b1 w2 b2 b p q := by
  have key : ∀ (b' : Fin 32) (p' : Fin 512) (q' : Fin 1024), b' = b → p' = p → q' = q →
      ffnAt x w1 b1 w2 b2 b' p' q' = ffnAt x w1 b1 w2 b2 b p q := by
    rintro _ _ _ rfl rfl rfl; rfl
  have hp := p.isLt
  exact key _ _ _ (Fin.ext (by show (i 0).val / 512 = b.val; omega)) (Fin.ext (by show (i 0).val % 512 = p.val; omega))
    (Fin.ext (by show (i 1).val = q.val; exact h1))

/-- The stored tile at an entry, when the five loaded blocks are the arguments' entries of batch entry b. -/
theorem tile_apply (x : SX.Idx → EReal) (w1 : SW1.Idx → EReal) (b1 : SB1.Idx → EReal) (w2 : SW2.Idx → EReal) (b2 : SB2.Idx → EReal)
    (x0 : Vec Ideal S512x1024 .f32) (x1 : Vec Ideal S1024x4096 .bf16) (x2 : Vec Ideal S1x4096 .f32)
    (x3 : Vec Ideal S4096x1024 .bf16) (x4 : Vec Ideal S1x1024 .f32) (b : Fin 32)
    (h0 : ∀ p d, (x0 (ix2 p d) : EReal) = x (ix3 b p d)) (h1 : ∀ d f, (x1 (ix2 d f) : EReal) = w1 (ix2 d f))
    (h2 : ∀ f, (x2 (ix2 0 f) : EReal) = b1 (ix1 f)) (h3 : ∀ f q, (x3 (ix2 f q) : EReal) = w2 (ix2 f q))
    (h4 : ∀ q, (x4 (ix2 0 q) : EReal) = b2 (ix1 q)) (p : Fin 512) (q : Fin 1024) :
    k0_pay1 (F := Ideal) x0 x1 x2 x3 x4 (ix2 p q) = ffnAt x w1 b1 w2 b2 b p q := by
  rw [pay_apply]
  unfold ffnAt term hid
  simp only [h0, h1, h2, h3, h4]

/-- What grid point t writes back is block t of that matrix of the arguments. -/
theorem flushed_rows (c : Dev nD) (t : Fin cfg0.N) :
    (dats m 0 c).flushed 5 t = ((cfg0.win 5).blk t).view.read (Elt Ideal)
      (rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := by
  show (cfg0.win 5).cut (grid0.coords t) ((dats m 0 c).after 5 t) = _
  rw [after0_5]
  unfold out0_5
  rw [View.canon_unit_zero origin2]
  simp only [View.ld_unit_zero (S := S512x1024) origin2, View.ld_unit_zero (S := S1024x4096) origin2,
    View.ld_unit_zero (S := S1x4096) origin2, View.ld_unit_zero (S := S4096x1024) origin2, View.ld_unit_zero (S := S1x1024) origin2]
  obtain ⟨-, -, -, -, -, -, -, -, -, -, e0, e1⟩ := block_at t
  show (k0_pay1 (F := Ideal) (iblk m c 0 t) (iblk m c 1 t) (iblk m c 2 t) (iblk m c 3 t) (iblk m c 4 t) : Vec Ideal S512x1024 .f32)
    = fun j : S512x1024.Idx => rows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (((cfg0.win 5).blk t).view.emb j)
  funext j
  obtain ⟨p, q, rfl⟩ : ∃ (p : Fin 512) (q : Fin 1024), j = ix2 p q := ⟨j 0, j 1, eq_ix2 j⟩
  refine (tile_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (iblk m c 0 t) (iblk m c 1 t) (iblk m c 2 t) (iblk m c 3 t) (iblk m c 4 t) (batchOf t)
    (blk_x m c t) (blk_w1 m c t) (fun f => blk_b1 m c t 0 f) (blk_w2 m c t) (fun q => blk_b2 m c t 0 q) p q).trans ?_
  refine (rows_apply _ _ _ _ _ _ (batchOf t) p q ?_ ?_).symm
  · show win0_5.index t (0 : Fin 2) * 512 + 1 * p.val = 512 * t.val + p.val
    rw [e0]; omega
  · show win0_5.index t (1 : Fin 2) * 1024 + 1 * q.val = q.val
    rw [e1]; omega

/-- An entry of the 16384-row matrix is in point t's block iff each coordinate is in the block's range on its axis. -/
theorem mem_block (t : Fin cfg0.N) (i : S16384x1024.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v5).slice (win0_5.rect t)).set ↔ _
  rw [View.set_slice_whole, Rect.mem_set_unit]
  exact Iff.rfl

/-- Every entry is written back by some point: row r by point r / 512. -/
theorem covered (i : S16384x1024.Idx) :
    ∃ t : Fin cfg0.N, (cfg0.win 5).flush t = true ∧ i ∈ ((cfg0.win 5).blk t).view.set := by
  have hi0 : (i 0).val < 16384 := idx2_lt0 i
  have hi1 : (i 1).val < 1024 := idx2_lt1 i
  obtain ⟨t, ht⟩ : ∃ t : Fin cfg0.N, t.val = (i 0).val / 512 :=
    ⟨⟨(i 0).val / 512, lt_of_lt_of_eq (show (i 0).val / 512 < 32 by omega) N_0.symm⟩, rfl⟩
  obtain ⟨-, -, -, -, -, -, -, -, -, -, e0, e1⟩ := block_at t
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- So after the run the kernel's output array is that matrix of the arguments. -/
theorem final_rows (c : Dev nD) : (dats m 0 c).arrAt 5 cfg0.N
    = rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (dats m 0 c).arrAt_eq_of_cover 5 _ (fun t _ => flushed_rows m c t) covered

end Cert.KernelIdeal.Hand

end
-- ==== Proof.KernelRun.lean ====
/-
  The kernel's run, read: the result array is the feed-forward block of the arguments, and the arguments are unchanged.

  After the call the program re-lays the 16384-row matrix as [32, 512, 1024]: entry (b, p, c) of the result is entry
  (512·b + p, c) of the matrix, which is the block's result for row p of batch entry b at column c. That is the
  specification's function of the five arguments, entry by entry.
-/
import proofs.«119623_g2000404091723755_pallasbulk_1092_2_alg».proof.Proof.Gen.KernelIdeal.Frame
import proofs.«119623_g2000404091723755_pallasbulk_1092_2_alg».proof.Proof.Spec
import proofs.«119623_g2000404091723755_pallasbulk_1092_2_alg».proof.Proof.KernelBlocks
import Idealize.ShloMosaic.Lib.Pipeline.Value

noncomputable section

namespace Cert.KernelIdeal.Hand

open Cert.KernelIdeal Cert.KernelIdeal.Gen Cert.FeedForward
open Idealize.ShloMosaic Idealize.ShloMosaic.ValueIdx Idealize.ShloMosaic.TcCoe Idealize.SL.Sem

variable (m : (ℓ : Loc nD τ sig) → Buf (Elt Ideal) ℓ) (ρ : Dev nD → PrngReg)

/-- The result array after the re-laying that follows the call: the specification's function of the arguments. -/
theorem result_eq (c : Dev nD) : (Pipeline.afterTail₀ cfgs (dats m) 0 (V0 m) [hostOps1] c main_v6 : SX.Idx → EReal)
    = ffn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  have hA : Pipeline.withArrays (cfgs 0).spec c (V0 m c) (fun w => (dats m 0 c).arrAt w (cfgs 0).N) (Proc.devRef .tc main_v5)
      = rows (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
    (Pipeline.withArrays_arr spec0 launch0.win.arr_inj c _ _ 5).trans (final_rows m c)
  unfold Pipeline.afterTail₀
  show StableHlo.after hostOps1 _ (Proc.devRef .tc main_v6) = _
  after_results
  show (fun i : S32x512x1024.Idx => shapeCast S32x512x1024
      (Pipeline.withArrays (cfgs 0).spec c (V0 m c) (fun w => (dats m 0 c).arrAt w (cfgs 0).N) (Proc.devRef .tc main_v5))
      shapeCasts_S16384x1024_S32x512x1024 i) = _
  rw [hA]
  funext i
  obtain ⟨b, p, q, rfl⟩ : ∃ (b : Fin 32) (p : Fin 512) (q : Fin 1024), i = ix3 b p q := ⟨i 0, i 1, i 2, eq_ix3 i⟩
  have hb := b.isLt
  have hp := p.isLt
  refine (shapeCast_apply _ _ _ (ix2 (⟨512 * b.val + p.val, by omega⟩ : Fin 16384) q) ?_).trans ?_
  · show (S16384x1024.rowMajor (ix2 (⟨512 * b.val + p.val, by omega⟩ : Fin 16384) q)).val = (S32x512x1024.rowMajor (ix3 b p q)).val
    rw [Shape.rowMajor_val_two, Shape.rowMajor_val_three]
    show (512 * b.val + p.val) * 1024 + q.val = (b.val * 512 + p.val) * 1024 + q.val
    omega
  · exact rows_apply _ _ _ _ _ _ b p q rfl rfl

/-- Every weakly fair execution of the program terminates without fault, the result array ends at the feed-forward block of
    the argument arrays, and the argument arrays end as they were. -/
theorem run :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6)
        = Cert.FeedForward.ffn (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun r h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefRuns.lean ====
/-
  The reference's kernel body, run once per control case.

  The reference walks the hidden axis of the feed-forward block in 8 tiles; grid point t = 8·i + j handles row tile i
  and hidden tile j. The body computes the tile's partial product P = relu(x·W1[:, tile] + b1[tile])·W2[tile, :] and then
  branches on j: at j = 0 the scratch accumulator is set to P; at j > 0 the scratch becomes scratch + P; at j = 7 the
  output block is written as scratch + b2. So exactly three control cases occur: first tile, middle tile, last tile.
-/
import proofs.«119623_g2000404091723755_pallasbulk_1092_2_alg».proof.Proof.Gen.ReferenceIdeal.Frame
import proofs.«119623_g2000404091723755_pallasbulk_1092_2_alg».proof.Proof.Gen.ReferenceIdeal.Skeleton
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions of the body, over the grid -/

/-- "The hidden tile is the first one" (grid coordinate 1 is 0), as the body computes it. -/
abbrev cond1 (i : grid0.Coords) : Prop := (Scalar.cmpi .ne (Scalar.extui (Scalar.cmpi .eq (BitVec.ofNat 32 (i 1).val) 0#32)) 0#32) = 1#1
/-- "The hidden tile is not the first one" (grid coordinate 1 is positive). -/
abbrev cond2 (i : grid0.Coords) : Prop := (Scalar.cmpi .ne (Scalar.extui (Scalar.cmpi .sgt (BitVec.ofNat 32 (i 1).val) 0#32)) 0#32) = 1#1
/-- "The hidden tile is the last one" (grid coordinate 1 is 7). -/
abbrev cond3 (i : grid0.Coords) : Prop := k0_cond3 i = 1#1

/-- Point t of the 32 × 8 grid has hidden tile t mod 8: the three conditions in closed form, decided over the 256 points. -/
theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 ≠ 0 :=
  (by decide +kernel : ∀ t : Fin grid0.N, cond2 (grid0.coords t) ↔ t.val % 8 ≠ 0)
theorem hcond3 : ∀ t : Fin cfg0.N, cond3 (grid0.coords t) ↔ t.val % 8 = 7 :=
  (by decide +kernel : ∀ t : Fin grid0.N, cond3 (grid0.coords t) ↔ t.val % 8 = 7)

/-! ## The body on whole staging buffers, one triple per control case

  Every load and store of the body goes through the rectangle that is the whole buffer, so a loaded value is the
  buffer's contents and a store leaves its payload. The body holds the x row tile (`x0`), the tile's columns of W1
  (`x1`), its entries of b1 (`x2`), its rows of W2 (`x3`) and b2 (`x4`); `k0_pay2` is the tile's partial product,
  `k0_pay3` that product added onto the scratch, `k0_pay4` the scratch plus the output bias. -/

theorem hz : (![0, 0] : Fin 2 → Nat) = fun _ => 0 := funext fun a => by fin_cases a <;> rfl

set_option maxHeartbeats 2000000 in
/-- The first hidden tile: whatever the scratch held, it ends holding the tile's partial product; the output
    buffer (`x7`) is not touched. -/
theorem run_first (c : Dev nD) (E : Set ℕ) (i : grid0.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole)
    (hc1 : cond1 i) (hc2 : ¬cond2 i) (hc3 : ¬cond3 i)
    (x0 : Vec F S512x1024 .f32) (x1 : Vec F S1024x512 .f32) (x2 : Vec F S1x512 .f32) (x3 : Vec F S512x1024 .f32) (x4 : Vec F S1x1024 .f32) (x7 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x7 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x7 ∗ owns (c : Thread nD τ) arg8 fullShare (k0_pay2 x0 x1 x2 x3)) -∗ K ⟨⟩))
      ⊢ wp frame (wpE (defs₀ (F := F)) Variants.none c none) E (cc0__ffn_kernel_tiled i arg2 harg2 arg3 harg3 arg4 harg4 arg5 harg5 arg6 harg6 arg7 harg7 arg8 harg8) K := by
  simp only [cc0__ffn_kernel_tiled_eq_skeleton]; unfold cc0__ffn_kernel_tiled_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%d8, %f8, -, H8⟩, Hk⟩
  subst hf0 hf1 hf2 hf3 hf4 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact H8
  ·
    ipureintro
    sl_unfold_words
    rw [View.read_writes_eq_canon _ _ _ (fun y => ⟨_, List.mem_singleton_self _, View.mem_set_unit_zero hz inb_S512x1024_S512x1024_0_0 y⟩), View.canon_unit_zero hz]
    simp only [View.readAt_eq_ld, View.ld_unit_zero (S := S512x1024) hz, View.ld_unit_zero (S := S1024x512) hz, View.ld_unit_zero (S := S1x512) hz, View.ld_unit_zero (S := S1x1024) hz]

set_option maxHeartbeats 2000000 in
/-- A middle hidden tile: the scratch, holding the running sum `xs`, takes the tile's partial product on top; the
    output buffer is not touched. -/
theorem run_mid (c : Dev nD) (E : Set ℕ) (i : grid0.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole)
    (hc1 : ¬cond1 i) (hc2 : cond2 i) (hc3 : ¬cond3 i)
    (x0 : Vec F S512x1024 .f32) (x1 : Vec F S1024x512 .f32) (x2 : Vec F S1x512 .f32) (x3 : Vec F S512x1024 .f32) (x4 : Vec F S1x1024 .f32) (x7 : Vec F S512x1024 .f32) (xs : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x7 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x7 ∗ owns (c : Thread nD τ) arg8 fullShare (k0_pay3 x0 x1 x2 x3 xs)) -∗ K ⟨⟩))
      ⊢ wp frame (wpE (defs₀ (F := F)) Variants.none c none) E (cc0__ffn_kernel_tiled i arg2 harg2 arg3 harg3 arg4 harg4 arg5 harg5 arg6 harg6 arg7 harg7 arg8 harg8) K := by
  simp only [cc0__ffn_kernel_tiled_eq_skeleton]; unfold cc0__ffn_kernel_tiled_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact H8
  ·
    ipureintro
    sl_unfold_words
    rw [View.read_writes_eq_canon _ _ _ (fun y => ⟨_, List.mem_singleton_self _, View.mem_set_unit_zero hz inb_S512x1024_S512x1024_0_0 y⟩), View.canon_unit_zero hz]
    simp only [View.readAt_eq_ld, View.ld_unit_zero (S := S512x1024) hz, View.ld_unit_zero (S := S1024x512) hz, View.ld_unit_zero (S := S1x512) hz, View.ld_unit_zero (S := S1x1024) hz]

set_option maxHeartbeats 2000000 in
/-- The last hidden tile: the scratch takes the tile's partial product on top of the running sum `xs`, and the
    output buffer ends holding that total plus the output bias. -/
theorem run_last (c : Dev nD) (E : Set ℕ) (i : grid0.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole)
    (hc1 : ¬cond1 i) (hc2 : cond2 i) (hc3 : cond3 i)
    (x0 : Vec F S512x1024 .f32) (x1 : Vec F S1024x512 .f32) (x2 : Vec F S1x512 .f32) (x3 : Vec F S512x1024 .f32) (x4 : Vec F S1x1024 .f32) (xs : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (k0_pay3 x0 x1 x2 x3 xs) x4) ∗ owns (c : Thread nD τ) arg8 fullShare (k0_pay3 x0 x1 x2 x3 xs)) -∗ K ⟨⟩))
      ⊢ wp frame (wpE (defs₀ (F := F)) Variants.none c none) E (cc0__ffn_kernel_tiled i arg2 harg2 arg3 harg3 arg4 harg4 arg5 harg5 arg6 harg6 arg7 harg7 arg8 harg8) K := by
  simp only [cc0__ffn_kernel_tiled_eq_skeleton]; unfold cc0__ffn_kernel_tiled_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0 hf1 hf2 hf3 hf4 hf8
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_words
    rw [View.read_writes_eq_canon _ _ _ (fun y => ⟨_, List.mem_singleton_self _, View.mem_set_unit_zero hz inb_S512x1024_S512x1024_0_0 y⟩), View.canon_unit_zero hz,
      View.readCov_unit_zero _ hz]
    simp only [View.readAt_eq_ld, View.ld_unit_zero (S := S512x1024) hz, View.ld_unit_zero (S := S1024x512) hz, View.ld_unit_zero (S := S1x512) hz, View.ld_unit_zero (S := S1x1024) hz]
  iexists _; isplitr
  swap; · iexact H8
  ·
    ipureintro
    sl_unfold_words
    rw [View.read_writes_eq_canon _ _ _ (fun y => ⟨_, List.mem_singleton_self _, View.mem_set_unit_zero hz inb_S512x1024_S512x1024_0_0 y⟩), View.canon_unit_zero hz]
    simp only [View.readAt_eq_ld, View.ld_unit_zero (S := S512x1024) hz, View.ld_unit_zero (S := S1024x512) hz, View.ld_unit_zero (S := S1x512) hz, View.ld_unit_zero (S := S1x1024) hz]

end Cert.ReferenceIdeal.Hand

end
-- ==== Proof.RefBody.lean ====
/-
  The reference's pallas_call as a pipeline run: what its scratch and its output window hold after every grid point.

  The grid is 32 row tiles × 8 hidden tiles, point t = 8·i + j. The scratch accumulator is carried from point to point:
  after point t it holds the running sum of the partial products of hidden tiles 0 … j of row tile i (set at j = 0,
  added to at j > 0). The output window's block index is the row tile alone, so the pipeline writes the block back only
  after the last hidden tile (t ≡ 7 mod 8); at the other points the body stores nothing into it and the window is idle.
-/
import proofs.«119623_g2000404091723755_pallasbulk_1092_2_alg».proof.Proof.RefRuns

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

/-- The five input windows are never idle. -/
theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl
/-- The output window is idle, and not written back, exactly off the last hidden tile. -/
theorem idle_out : ∀ t : Fin cfg0.N, ¬cond3 (grid0.coords t) → cfg0.idle 5 (grid0.coords t) = true := by decide +kernel
theorem live_out : ∀ t : Fin cfg0.N, cond3 (grid0.coords t) → cfg0.idle 5 (grid0.coords t) = false := by decide +kernel
theorem noFlush_out : ∀ t : Fin cfg0.N, ¬cond3 (grid0.coords t) → (cfg0.win 5).flush t = false := by decide +kernel

/-- The scratch accumulator, a whole buffer of the kernel's own. -/
abbrev scM : Memref sig .tc .vmem S512x1024 .f32 := Memref.whole cc0_scratch0

/-- What the launch hands the region besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The running sum, point by point -/

/-- The scratch after point n: at the first hidden tile of a row tile the tile's partial product, otherwise that
    product on top of what the point before left. -/
def accAt (c : Dev nD) : (n : ℕ) → n < cfg0.N → Vec F S512x1024 .f32
  | 0, hn => k0_pay2 (iblk m c 0 ⟨0, hn⟩) (iblk m c 1 ⟨0, hn⟩) (iblk m c 2 ⟨0, hn⟩) (iblk m c 3 ⟨0, hn⟩)
  | n + 1, hn =>
    if (n + 1) % 8 = 0 then k0_pay2 (iblk m c 0 ⟨n + 1, hn⟩) (iblk m c 1 ⟨n + 1, hn⟩) (iblk m c 2 ⟨n + 1, hn⟩) (iblk m c 3 ⟨n + 1, hn⟩)
    else k0_pay3 (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h : t.val % 8 = 0) :
    accAt m c t.val t.isLt = k0_pay2 (iblk m c 0 t) (iblk m c 1 t) (iblk m c 2 t) (iblk m c 3 t) := by
  obtain ⟨n, hn⟩ := t
  cases n with
  | zero => rfl
  | succ n => exact if_pos h

theorem accAt_next (c : Dev nD) (t : Fin cfg0.N) (h : t.val % 8 ≠ 0) :
    accAt m c t.val t.isLt = k0_pay3 (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd (Nat.zero_mod _) h
  | succ n => exact if_neg h

/-- The region invariant before position n: at the very start what the launch hands over (the scratch at anything);
    afterwards the scratch at the running sum the point before left, and the generator register. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- On core c: the arrays as the region finds them; after the body at point t each input's buffer at its block and
    the output's at the running sum plus the output bias (consulted only where the window is live); the invariant
    carries the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (accAt m c t.val t.isLt) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay4 (accAt m c t.val t.isLt) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body must leave in a live input window: its block, in place. -/
theorem leaves0 (c : Dev nD) (t : Fin cfg0.N) : (dats m 0 c).leavesExact 0 t = owns (c : Thread nD τ) (st0_0 t) fullShare (iblk m c 0 t) := by
  rw [show (dats m 0 c).leavesExact 0 t = owns (c : Thread nD τ) (st0_0 t) fullShare ((dats m 0 c).after 0 t) from by
    unfold Dat.leavesExact; rw [live_in0 t], after0_0]
theorem leaves1 (c : Dev nD) (t : Fin cfg0.N) : (dats m 0 c).leavesExact 1 t = owns (c : Thread nD τ) (st0_1 t) fullShare (iblk m c 1 t) := by
  rw [show (dats m 0 c).leavesExact 1 t = owns (c : Thread nD τ) (st0_1 t) fullShare ((dats m 0 c).after 1 t) from by
    unfold Dat.leavesExact; rw [live_in1 t], after0_1]
theorem leaves2 (c : Dev nD) (t : Fin cfg0.N) : (dats m 0 c).leavesExact 2 t = owns (c : Thread nD τ) (st0_2 t) fullShare (iblk m c 2 t) := by
  rw [show (dats m 0 c).leavesExact 2 t = owns (c : Thread nD τ) (st0_2 t) fullShare ((dats m 0 c).after 2 t) from by
    unfold Dat.leavesExact; rw [live_in2 t], after0_2]
theorem leaves3 (c : Dev nD) (t : Fin cfg0.N) : (dats m 0 c).leavesExact 3 t = owns (c : Thread nD τ) (st0_3 t) fullShare (iblk m c 3 t) := by
  rw [show (dats m 0 c).leavesExact 3 t = owns (c : Thread nD τ) (st0_3 t) fullShare ((dats m 0 c).after 3 t) from by
    unfold Dat.leavesExact; rw [live_in3 t], after0_3]
theorem leaves4 (c : Dev nD) (t : Fin cfg0.N) : (dats m 0 c).leavesExact 4 t = owns (c : Thread nD τ) (st0_4 t) fullShare (iblk m c 4 t) := by
  rw [show (dats m 0 c).leavesExact 4 t = owns (c : Thread nD τ) (st0_4 t) fullShare ((dats m 0 c).after 4 t) from by
    unfold Dat.leavesExact; rw [live_in4 t], after0_4]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's hidden tile (t mod 8) says which control
    case it is in; the invariant hands the body the scratch at the running sum the point before left (at anything at the
    very first point) and takes it back at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  by_cases h0 : t.val % 8 = 0
  · have hc1 : cond1 (grid0.coords t) := (hcond1 t).mpr h0
    have hc2 : ¬cond2 (grid0.coords t) := fun h => (hcond2 t).mp h h0
    have hc3 : ¬cond3 (grid0.coords t) := fun h => by have := (hcond3 t).mp h; omega
    rw [Dat.leavesExact_idle (dats m 0 c) 5 t (idle_out t hc3) (noFlush_out t hc3)]
    rw [accAt_first m c t h0]
    by_cases hz : t.val = 0
    ·
      rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (run_first c Set.univ (grid0.coords t) _ _ _ _ _ _ _ _ _ _ _ _ _ _ hc1 hc2 hc3 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_first c Set.univ (grid0.coords t) _ _ _ _ _ _ _ _ _ _ _ _ _ _ hc1 hc2 hc3 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hc1 : ¬cond1 (grid0.coords t) := fun h => h0 ((hcond1 t).mp h)
    have hc2 : cond2 (grid0.coords t) := (hcond2 t).mpr h0
    rw [accAt_next m c t h0]
    rw [PhiS_castSucc m c t, PhiS_pos m c _ _ hz]
    by_cases h7 : t.val % 8 = 7
    · have hc3 : cond3 (grid0.coords t) := (hcond3 t).mpr h7
      rw [show (dats m 0 c).leavesExact 5 t = owns (c : Thread nD τ) (st0_5 t) fullShare ((dats m 0 c).after 5 t) from by
        unfold Dat.leavesExact; rw [live_out t hc3], after0_5, accAt_next m c t h0]
      iintro ⟨⟨HS, Hg⟩, Ho, ⟨%d0, H0⟩, ⟨%d1, H1⟩, ⟨%d2, H2⟩, ⟨%d3, H3⟩, ⟨%d4, H4⟩, ⟨%d5, H5⟩⟩
      iapply (run_last c Set.univ (grid0.coords t) _ _ _ _ _ _ _ _ _ _ _ _ _ _ hc1 hc2 hc3 (iblk m c 0 t) (iblk m c 1 t) (iblk m c 2 t) (iblk m c 3 t) (iblk m c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc3 : ¬cond3 (grid0.coords t) := fun h => h7 ((hcond3 t).mp h)
      rw [Dat.leavesExact_idle (dats m 0 c) 5 t (idle_out t hc3) (noFlush_out t hc3)]
      iintro ⟨⟨HS, Hg⟩, Ho, ⟨%d0, H0⟩, ⟨%d1, H1⟩, ⟨%d2, H2⟩, ⟨%d3, H3⟩, ⟨%d4, H4⟩, ⟨%d5, H5⟩⟩
      iapply (run_mid c Set.univ (grid0.coords t) _ _ _ _ _ _ _ _ _ _ _ _ _ _ hc1 hc2 hc3 (iblk m c 0 t) (iblk m c 1 t) (iblk m c 2 t) (iblk m c 3 t) (iblk m c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's resources back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- Every weakly fair execution of the reference's @main terminates, and every final state has each array of the
    pipeline at what the proof data computes and every other buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The reference's frame: its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.ReferenceIdeal.Hand

end
-- ==== Proof.RefPay.lean ====
/-
  The reference body's four stored values, read at one element of the 512 × 1024 block.

  One visit of the body at hidden tile j sees the row tile's activations x (512 × 1024), the tile's columns of the
  first weight matrix (1024 × 512), the tile's slice of the first bias (1 × 512), the tile's rows of the second weight
  matrix (512 × 1024). Its partial product at (p, c) is
      Σ_{k < 512} max (Σ_{d < 1024} x[p,d] · w1[d,k] + b1[0,k]) 0 · w2[k,c]:
  a product into a zero accumulator is the bare sum of products over the contracted axis, a one-row array broadcast
  down the rows reads its row, the positive part is the maximum with the number the zero word encodes, which is 0, and
  a cast to the same shape changes nothing. The first visit stores that partial product, a later one adds it to what
  the accumulator held, and the last one adds the second bias's row to the accumulator.
-/
import proofs.«119623_g2000404091723755_pallasbulk_1092_2_alg».proof.Proof.Gen.ReferenceIdeal.Skeleton
import Idealize.ShloMosaic.PureOps.Ideal.Laws
import Idealize.ShloMosaic.Lib.ValueLayout

noncomputable section

open scoped BigOperators

namespace Cert.ReferenceIdeal.Hand

open Idealize.ShloMosaic Cert.ReferenceIdeal Cert.ReferenceIdeal.Gen Idealize.ShloMosaic.ValueIdx

/-- The first product's dimension numbers: [512,1024] · [1024,512], contracting the 1024 axis. -/
abbrev DA : DotDims S512x1024 S1024x512 S512x512 := dot_S512x1024_S1024x512_S512x512_1_0_0_1_n_n
/-- The second product's: [512,512] · [512,1024], contracting the 512 axis. -/
abbrev DB : DotDims S512x512 S512x1024 S512x1024 := dot_S512x512_S512x1024_S512x1024_1_0_0_1_n_n

theorem DA_lhs0 (j : S512x512.Idx) (k : DA.contr.Idx) : (DA.lhsIdx j k 0 : ℕ) = j 0 := by
  simp [DotDims.lhsIdx, DA, dot_S512x1024_S1024x512_S512x512_1_0_0_1_n_n]; rfl
theorem DA_rhs1 (j : S512x512.Idx) (k : DA.contr.Idx) : (DA.rhsIdx j k 1 : ℕ) = j 1 := by
  simp [DotDims.rhsIdx, DA, dot_S512x1024_S1024x512_S512x512_1_0_0_1_n_n]; rfl
theorem DB_lhs0 (j : S512x1024.Idx) (k : DB.contr.Idx) : (DB.lhsIdx j k 0 : ℕ) = j 0 := by
  simp [DotDims.lhsIdx, DB, dot_S512x512_S512x1024_S512x1024_1_0_0_1_n_n]; rfl
theorem DB_rhs1 (j : S512x1024.Idx) (k : DB.contr.Idx) : (DB.rhsIdx j k 1 : ℕ) = j 1 := by
  simp [DotDims.rhsIdx, DB, dot_S512x512_S512x1024_S512x1024_1_0_0_1_n_n]; rfl

/-- The first product into the zero accumulator, at (p, k): the sum over the 1024 contracted positions. -/
theorem mmA_apply (a : FVec Ideal S512x1024 .f32) (b : FVec Ideal S1024x512 .f32) (p k : Fin 512) :
    matmul (F := Ideal) DA none a b (constant (F := Ideal) S512x512 .f32 0x00000000#32) (ix2 p k)
      = ∑ d : Fin 1024, a (ix2 p d) * b (ix2 d k) := by
  simp only [matmul]
  rw [Ideal.matmul_constant_zero_apply, ← Equiv.sum_comp (contrEquiv1 DA 1024 rfl rfl).symm]
  refine Finset.sum_congr rfl fun d _ => ?_
  have hl : DA.lhsIdx (ix2 p k) ((contrEquiv1 DA 1024 rfl rfl).symm d) = ix2 p d := by
    funext ax
    match ax with
    | ⟨0, _⟩ => exact Fin.ext (DA_lhs0 _ _)
    | ⟨1, _⟩ => exact Fin.ext ((DA.lhsIdx_val_of_single (cl := 1) rfl _ _).trans (contrEquiv1_symm_val DA 1024 rfl rfl d))
  have hr : DA.rhsIdx (ix2 p k) ((contrEquiv1 DA 1024 rfl rfl).symm d) = ix2 d k := by
    funext ax
    match ax with
    | ⟨0, _⟩ => exact Fin.ext ((DA.rhsIdx_val_of_single (cr := 0) rfl _ _).trans (contrEquiv1_symm_val DA 1024 rfl rfl d))
    | ⟨1, _⟩ => exact Fin.ext (DA_rhs1 _ _)
  rw [hl, hr]

/-- The second product into the zero accumulator, at (p, c): the sum over the 512 contracted positions. -/
theorem mmB_apply (a : FVec Ideal S512x512 .f32) (b : FVec Ideal S512x1024 .f32) (p : Fin 512) (c : Fin 1024) :
    matmul (F := Ideal) DB none a b (constant (F := Ideal) S512x1024 .f32 0x00000000#32) (ix2 p c)
      = ∑ k : Fin 512, a (ix2 p k) * b (ix2 k c) := by
  simp only [matmul]
  rw [Ideal.matmul_constant_zero_apply, ← Equiv.sum_comp (contrEquiv1 DB 512 rfl rfl).symm]
  refine Finset.sum_congr rfl fun k _ => ?_
  have hl : DB.lhsIdx (ix2 p c) ((contrEquiv1 DB 512 rfl rfl).symm k) = ix2 p k := by
    funext ax
    match ax with
    | ⟨0, _⟩ => exact Fin.ext (DB_lhs0 _ _)
    | ⟨1, _⟩ => exact Fin.ext ((DB.lhsIdx_val_of_single (cl := 1) rfl _ _).trans (contrEquiv1_symm_val DB 512 rfl rfl k))
  have hr : DB.rhsIdx (ix2 p c) ((contrEquiv1 DB 512 rfl rfl).symm k) = ix2 k c := by
    funext ax
    match ax with
    | ⟨0, _⟩ => exact Fin.ext ((DB.rhsIdx_val_of_single (cr := 0) rfl _ _).trans (contrEquiv1_symm_val DB 512 rfl rfl k))
    | ⟨1, _⟩ => exact Fin.ext (DB_rhs1 _ _)
  rw [hl, hr]

/-- The tile's partial product at (p, c). -/
theorem pay1_apply (v0 : Vec Ideal S512x1024 .f32) (v2 : Vec Ideal S1024x512 .f32) (v4 : Vec Ideal S1x512 .f32)
    (v10 : Vec Ideal S512x1024 .f32) (p : Fin 512) (c : Fin 1024) :
    k0_pay1 v0 v2 v4 v10 (ix2 p c)
      = ∑ k : Fin 512, max ((∑ d : Fin 1024, v0 (ix2 p d) * v2 (ix2 d k)) + v4 (ix2 0 k)) 0 * v10 (ix2 k c) := by
  unfold k0_pay1
  simp only [shapeCast_self]
  rw [mmB_apply]
  refine Finset.sum_congr rfl fun k _ => ?_
  rw [maximumf_apply, addf_apply, mmA_apply, broadcastTo_1b_ab_apply, broadcast_apply]
  show max _ (Ideal.ofBits .f32 0x00000000#32) * _ = _
  rw [Ideal.ofBits_zero_f32]

/-- The first visit's stored value: the partial product (the cast is to the same shape). -/
theorem pay2_apply (v0 : Vec Ideal S512x1024 .f32) (v2 : Vec Ideal S1024x512 .f32) (v4 : Vec Ideal S1x512 .f32)
    (v10 : Vec Ideal S512x1024 .f32) (p : Fin 512) (c : Fin 1024) :
    k0_pay2 v0 v2 v4 v10 (ix2 p c)
      = ∑ k : Fin 512, max ((∑ d : Fin 1024, v0 (ix2 p d) * v2 (ix2 d k)) + v4 (ix2 0 k)) 0 * v10 (ix2 k c) := by
  unfold k0_pay2
  simp only [shapeCast_self]
  exact pay1_apply v0 v2 v4 v10 p c

/-- A later visit's stored value: what the accumulator held plus the partial product. -/
theorem pay3_apply (v0 : Vec Ideal S512x1024 .f32) (v2 : Vec Ideal S1024x512 .f32) (v4 : Vec Ideal S1x512 .f32)
    (v10 : Vec Ideal S512x1024 .f32) (v21 : Vec Ideal S512x1024 .f32) (p : Fin 512) (c : Fin 1024) :
    k0_pay3 v0 v2 v4 v10 v21 (ix2 p c)
      = v21 (ix2 p c) + ∑ k : Fin 512, max ((∑ d : Fin 1024, v0 (ix2 p d) * v2 (ix2 d k)) + v4 (ix2 0 k)) 0 * v10 (ix2 k c) := by
  unfold k0_pay3
  simp only [shapeCast_self]
  rw [addf_apply, pay1_apply]

/-- The last visit's output block: the accumulator plus the second bias's row. -/
theorem pay4_apply (v21 : Vec Ideal S512x1024 .f32) (v22 : Vec Ideal S1x1024 .f32) (p : Fin 512) (c : Fin 1024) :
    k0_pay4 v21 v22 (ix2 p c) = v21 (ix2 p c) + v22 (ix2 0 c) := by
  unfold k0_pay4
  simp only [shapeCast_self]
  rw [addf_apply, broadcastTo_1b_ab_apply]

end Cert.ReferenceIdeal.Hand

end
-- ==== Proof.RefBlocks.lean ====
/-
  What each input window's block holds at a grid point, in terms of the five argument arrays.

  The grid is 32 × 8, walked with the second axis fastest: point t has row tile i = t / 8 and hidden tile j = t % 8.
  A block's element at a coordinate y inside the block is the array's element at (block index) × (block size) + y on
  each axis, and the block indices at point t are
      activations (as a [16384, 1024] matrix)  (i, 0)      first weights [1024, 4096]   (0, j)
      first bias (as a [1, 4096] row)          (0, j)      second weights [4096, 1024]  (j, 0)
      second bias (as a [1, 1024] row)         (0, 0).
  The activations, the first bias and the second bias reach their windows through a reshape of the argument: a reshape
  keeps the row-major position, so row 512·i + p of the [16384, 1024] matrix is row p of slab i of the [32, 512, 1024]
  argument, and the one row of a [1, n] array is the length-n argument. Hidden tile j's unit k is unit 512·j + k of
  the hidden axis.
-/
import proofs.«119623_g2000404091723755_pallasbulk_1092_2_alg».proof.Proof.Gen.ReferenceIdeal.Frame
import proofs.«119623_g2000404091723755_pallasbulk_1092_2_alg».proof.Proof.Spec
import Idealize.ShloMosaic.Lib.Pipeline.Value
import Idealize.ShloMosaic.Lib.ValueLayout
import Idealize.ShloMosaic.Lib.Tactic

noncomputable section

namespace Cert.ReferenceIdeal.Hand

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-! ## The three reshaped arrays as the region finds them -/

/-- The activations' [16384, 1024] matrix is the [32, 512, 1024] argument reshaped. -/
theorem V_v0 (c : Dev nD) :
    (Gen.V m c main_v0 : S16384x1024.Idx → EReal)
      = shapeCast S16384x1024 (m ((c : Thread nD τ).loc main_arg0) : S32x512x1024.Idx → EReal) shapeCasts_S32x512x1024_S16384x1024 := by
  show StableHlo.after hostOps0 (fun b => m (c, b)) (Proc.devRef .tc main_v0) = _
  after_results
  rfl

/-- The second bias's [1, 1024] row is the length-1024 argument reshaped. -/
theorem V_v1 (c : Dev nD) :
    (Gen.V m c main_v1 : S1x1024.Idx → EReal)
      = shapeCast S1x1024 (m ((c : Thread nD τ).loc main_arg4) : S1024.Idx → EReal) shapeCasts_S1024_S1x1024 := by
  show StableHlo.after hostOps0 (fun b => m (c, b)) (Proc.devRef .tc main_v1) = _
  after_results
  rfl

/-- The first bias's [1, 4096] row is the length-4096 argument reshaped. -/
theorem V_v2 (c : Dev nD) :
    (Gen.V m c main_v2 : S1x4096.Idx → EReal)
      = shapeCast S1x4096 (m ((c : Thread nD τ).loc main_arg2) : S4096.Idx → EReal) shapeCasts_S4096_S1x4096 := by
  show StableHlo.after hostOps0 (fun b => m (c, b)) (Proc.devRef .tc main_v2) = _
  after_results
  rfl

/-! ## The block indices at a point, decided over the 256 points -/

/-- The activations' block index at point t is (t / 8, 0). -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
/-- The first weights' is (0, t % 8). -/
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
/-- The first bias's is (0, t % 8). -/
theorem idx2 : ∀ t : Fin cfg0.N, win0_2.index t 0 = 0 ∧ win0_2.index t 1 = t.val % 8 :=
  (by decide +kernel : ∀ t : Fin grid0.N, win0_2.index t 0 = 0 ∧ win0_2.index t 1 = t.val % 8)
/-- The second weights' is (t % 8, 0). -/
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)
/-- The second bias's is (0, 0). -/
theorem idx4 : ∀ t : Fin cfg0.N, win0_4.index t 0 = 0 ∧ win0_4.index t 1 = 0 :=
  (by decide +kernel : ∀ t : Fin grid0.N, win0_4.index t 0 = 0 ∧ win0_4.index t 1 = 0)

/-- A point's row tile is below 32. -/
theorem rowTile_lt (t : Fin cfg0.N) : t.val / 8 < 32 := by
  have ht : t.val < 256 := t.isLt.trans_eq N_0
  omega

/-! ## The blocks -/

/-- The activations' block at point t, at (p, d): the argument's slab t / 8, row p, column d
    (row-major position ((t / 8) · 512 + p) · 1024 + d on both sides). -/
theorem iblk0_apply (c : Dev nD) (t : Fin cfg0.N) (p : Fin 512) (d : Fin 1024) :
    (iblk m c 0 t : Vec Ideal S512x1024 .f32) (ix2 p d)
      = (m ((c : Thread nD τ).loc main_arg0) : S32x512x1024.Idx → EReal) (ix3 ⟨t.val / 8, rowTile_lt t⟩ p d) := by
  have hi := idx0 t
  unfold iblk
  rw [View.read_apply]
  show (V m c main_v0 : S16384x1024.Idx → EReal) _ = _
  rw [V_v0]
  refine shapeCast_apply _ _ _ _ ?_
  show (S32x512x1024.rowMajor _).val = (S16384x1024.rowMajor _).val
  rw [Shape.rowMajor_val_three, Shape.rowMajor_val_two]
  show ((t.val / 8) * 512 + p.val) * 1024 + d.val = (win0_0.index t 0 * 512 + 1 * p.val) * 1024 + (win0_0.index t 1 * 1024 + 1 * d.val)
  rw [hi.1, hi.2]; omega

/-- The first weights' block at point t, at (d, k): row d, the column of hidden tile t % 8's unit k. -/
theorem iblk1_apply (c : Dev nD) (t : Fin cfg0.N) (d : Fin 1024) (k : Fin 512) :
    (iblk m c 1 t : Vec Ideal S1024x512 .f32) (ix2 d k)
      = (m ((c : Thread nD τ).loc main_arg1) : S1024x4096.Idx → EReal) (ix2 d (Cert.FeedForward.unit (t.val % 8) k)) := by
  have hi := idx1 t
  have hu := Cert.FeedForward.unit_val (t.val % 8) (Nat.mod_lt _ (by decide)) k
  unfold iblk
  rw [View.read_apply]
  show (V m c main_arg1 : S1024x4096.Idx → EReal) _ = _
  rw [V_main_arg1]
  congr 1
  funext a
  apply Fin.ext
  match a with
  | ⟨0, _⟩ => show win0_1.index t 0 * 1024 + 1 * d.val = d.val; rw [hi.1]; omega
  | ⟨1, _⟩ => show win0_1.index t 1 * 512 + 1 * k.val = (Cert.FeedForward.unit (t.val % 8) k).val; rw [hi.2, hu]; omega

/-- The first bias's block at point t, at (0, k): the argument at hidden tile t % 8's unit k. -/
theorem iblk2_apply (c : Dev nD) (t : Fin cfg0.N) (k : Fin 512) :
    (iblk m c 2 t : Vec Ideal S1x512 .f32) (ix2 (0 : Fin 1) k)
      = (m ((c : Thread nD τ).loc main_arg2) : S4096.Idx → EReal) (ix1 (Cert.FeedForward.unit (t.val % 8) k)) := by
  have hi := idx2 t
  have hu := Cert.FeedForward.unit_val (t.val % 8) (Nat.mod_lt _ (by decide)) k
  unfold iblk
  rw [View.read_apply]
  show (V m c main_v2 : S1x4096.Idx → EReal) _ = _
  rw [V_v2]
  refine shapeCast_apply _ _ _ _ ?_
  show (S4096.rowMajor _).val = (S1x4096.rowMajor _).val
  rw [Shape.rowMajor_val_one, Shape.rowMajor_val_two]
  show (Cert.FeedForward.unit (t.val % 8) k).val = (win0_2.index t 0 * 1 + 1 * 0) * 4096 + (win0_2.index t 1 * 512 + 1 * k.val)
  rw [hi.1, hi.2, hu]; omega

/-- The second weights' block at point t, at (k, c'): the row of hidden tile t % 8's unit k, column c'. -/
theorem iblk3_apply (c : Dev nD) (t : Fin cfg0.N) (k : Fin 512) (c' : Fin 1024) :
    (iblk m c 3 t : Vec Ideal S512x1024 .f32) (ix2 k c')
      = (m ((c : Thread nD τ).loc main_arg3) : S4096x1024.Idx → EReal) (ix2 (Cert.FeedForward.unit (t.val % 8) k) c') := by
  have hi := idx3 t
  have hu := Cert.FeedForward.unit_val (t.val % 8) (Nat.mod_lt _ (by decide)) k
  unfold iblk
  rw [View.read_apply]
  show (V m c main_arg3 : S4096x1024.Idx → EReal) _ = _
  rw [V_main_arg3]
  congr 1
  funext a
  apply Fin.ext
  match a with
  | ⟨0, _⟩ => show win0_3.index t 0 * 512 + 1 * k.val = (Cert.FeedForward.unit (t.val % 8) k).val; rw [hi.1, hu]; omega
  | ⟨1, _⟩ => show win0_3.index t 1 * 1024 + 1 * c'.val = c'.val; rw [hi.2]; omega

/-- The second bias's one block, at (0, c'): the argument at c', at every point. -/
theorem iblk4_apply (c : Dev nD) (t : Fin cfg0.N) (c' : Fin 1024) :
    (iblk m c 4 t : Vec Ideal S1x1024 .f32) (ix2 (0 : Fin 1) c')
      = (m ((c : Thread nD τ).loc main_arg4) : S1024.Idx → EReal) (ix1 c') := by
  have hi := idx4 t
  unfold iblk
  rw [View.read_apply]
  show (V m c main_v1 : S1x1024.Idx → EReal) _ = _
  rw [V_v1]
  refine shapeCast_apply _ _ _ _ ?_
  show (S1024.rowMajor _).val = (S1x1024.rowMajor _).val
  rw [Shape.rowMajor_val_one, Shape.rowMajor_val_two]
  show c'.val = (win0_4.index t 0 * 1 + 1 * 0) * 1024 + (win0_4.index t 1 * 1024 + 1 * c'.val)
  rw [hi.1, hi.2]; omega

end Cert.ReferenceIdeal.Hand

end
-- ==== Proof.SpecLaw.lean ====
/-
  The eight tiles of 512 consecutive hidden units partition the hidden axis, so the running sum of the tiles' partial
  sums, once the last tile is in, is the sum over the whole hidden axis. The sum lives in a commutative monoid (the
  extended reals under addition), so the regrouping is a reindexing along the bijection
  (tile, unit in tile) ↦ 512 · tile + unit in tile and needs no finiteness.
-/
import proofs.«119623_g2000404091723755_pallasbulk_1092_2_alg».proof.Proof.Spec

noncomputable section

open scoped BigOperators

namespace Cert.FeedForward

/-- After the last tile the running sum is the sum over all 4096 hidden units. -/
theorem runSum_seven (g : Fin 4096 → EReal) : runSum g 7 = ∑ f : Fin 4096, g f := by
  rw [← Equiv.sum_comp (finProdFinEquiv : Fin 8 × Fin 512 ≃ Fin 4096) g, Fintype.sum_prod_type]
  unfold runSum tileSum
  rw [← Fin.sum_univ_eq_sum_range (fun j => ∑ k : Fin 512, g (unit j k)) (7 + 1)]
  refine Finset.sum_congr rfl (fun j _ => Finset.sum_congr rfl (fun k _ => ?_))
  congr 1
  apply Fin.ext
  rw [unit_val j.val j.isLt k]
  show 512 * j.val + k.val = k.val + 512 * j.val
  omega

end Cert.FeedForward

end
-- ==== Proof.RefValue.lean ====
/-
  What the reference's scratch and output block hold, as the specification's sums.

  At grid point t = 8·i + j the four input blocks are the rows 512·i … of x and the hidden units 512·j … 512·j + 511 of
  W1, b1 and W2, so the partial product the body forms at (p, c') is the specification's tile sum over tile j of the
  contributions of row (i, p) to column c'. The scratch therefore holds, after point t, the running sum over tiles
  0 … j; and at j = 7 the output block, scratch + b2, is the block's row of the specification: the 8 tiles exhaust the
  4096 hidden units.
-/
import proofs.«119623_g2000404091723755_pallasbulk_1092_2_alg».proof.Proof.RefBody
import proofs.«119623_g2000404091723755_pallasbulk_1092_2_alg».proof.Proof.RefPay
import proofs.«119623_g2000404091723755_pallasbulk_1092_2_alg».proof.Proof.RefBlocks
import proofs.«119623_g2000404091723755_pallasbulk_1092_2_alg».proof.Proof.SpecLaw

noncomputable section

open scoped BigOperators

namespace Cert.ReferenceIdeal.Hand

open Idealize.ShloMosaic Idealize.ShloMosaic.TcCoe Idealize.SL.Sem Idealize.ShloMosaic.ValueIdx
open Cert.ReferenceIdeal Cert.ReferenceIdeal.Gen Cert.FeedForward

variable (m : (ℓ : Loc nD τ sig) → Buf (Elt Ideal) ℓ)

/-- The contributions of the 4096 hidden units to column c' of row (b, p), over the launch memory's arguments. -/
def contrib (c : Dev nD) (b : Fin 32) (p : Fin 512) (c' : Fin 1024) : Fin 4096 → EReal :=
  term (m ((c : Thread nD τ).loc main_arg0)) (m ((c : Thread nD τ).loc main_arg1)) (m ((c : Thread nD τ).loc main_arg2))
    (m ((c : Thread nD τ).loc main_arg3)) b p c'

/-- The partial product at (p, c') as a function of the four blocks the body holds. -/
def tileTerm (v0 : Vec Ideal S512x1024 .f32) (v2 : Vec Ideal S1024x512 .f32) (v4 : Vec Ideal S1x512 .f32)
    (v10 : Vec Ideal S512x1024 .f32) (p : Fin 512) (c' : Fin 1024) : EReal :=
  ∑ k : Fin 512, max ((∑ d : Fin 1024, v0 (ix2 p d) * v2 (ix2 d k)) + v4 (ix2 0 k)) 0 * v10 (ix2 k c')

/-- The partial product formed at point t is tile (t mod 8)'s sum of the contributions of row tile t / 8. -/
theorem tile_eq (c : Dev nD) (t : Fin cfg0.N) (b : Fin 32) (hb : b.val = t.val / 8) (j : ℕ) (hj : j = t.val % 8)
    (p : Fin 512) (c' : Fin 1024) :
    tileTerm (iblk m c 0 t) (iblk m c 1 t) (iblk m c 2 t) (iblk m c 3 t) p c' = tileSum (contrib m c b p c') j := by
  obtain rfl : b = ⟨t.val / 8, rowTile_lt t⟩ := Fin.ext hb
  subst hj
  unfold tileTerm
  simp only [iblk0_apply, iblk1_apply, iblk2_apply, iblk3_apply]
  rfl

/-- The scratch after point n: the running sum over hidden tiles 0 … n mod 8 of row tile n / 8. -/
theorem acc_eq (c : Dev nD) (n : ℕ) : ∀ (hn : n < cfg0.N) (b : Fin 32) (hb : b.val = n / 8) (p : Fin 512) (c' : Fin 1024),
    (accAt m c n hn : Vec Ideal S512x1024 .f32) (ix2 p c') = runSum (contrib m c b p c') (n % 8) := by
  induction n with
  | zero =>
    intro hn b hb p c'
    rw [show accAt m c 0 hn = _ from accAt_first m c ⟨0, hn⟩ rfl]
    exact ((pay2_apply _ _ _ _ p c').trans (tile_eq m c ⟨0, hn⟩ b hb 0 rfl p c')).trans (runSum_zero _).symm
  | succ n ih =>
    intro hn b hb p c'
    by_cases h : (n + 1) % 8 = 0
    · rw [show accAt m c (n + 1) hn = _ from accAt_first m c ⟨n + 1, hn⟩ h, h]
      exact ((pay2_apply _ _ _ _ p c').trans (tile_eq m c ⟨n + 1, hn⟩ b hb 0 h.symm p c')).trans (runSum_zero _).symm
    · have e2 : (n + 1) % 8 = n % 8 + 1 := by omega
      have hb' : b.val = n / 8 := by omega
      rw [show accAt m c (n + 1) hn = k0_pay3 (iblk m c 0 ⟨n + 1, hn⟩) (iblk m c 1 ⟨n + 1, hn⟩) (iblk m c 2 ⟨n + 1, hn⟩) (iblk m c 3 ⟨n + 1, hn⟩)
          (accAt m c n (Nat.lt_of_succ_lt hn)) from accAt_next m c ⟨n + 1, hn⟩ h]
      refine (pay3_apply _ _ _ _ _ p c').trans ?_
      rw [ih (Nat.lt_of_succ_lt hn) b hb' p c', e2, runSum_succ]
      exact congrArg (runSum (contrib m c b p c') (n % 8) + ·) (tile_eq m c ⟨n + 1, hn⟩ b hb (n % 8 + 1) e2.symm p c')

/-- At the last hidden tile the output block holds the specification's value of its rows. -/
theorem out_eq (c : Dev nD) (t : Fin cfg0.N) (h7 : t.val % 8 = 7) (p : Fin 512) (c' : Fin 1024) :
    ((dats m 0 c).after 5 t : Vec Ideal S512x1024 .f32) (ix2 p c')
      = ffnAt (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 8, rowTile_lt t⟩ p c' := by
  rw [after0_5, pay4_apply, iblk4_apply, acc_eq m c t.val t.isLt ⟨t.val / 8, rowTile_lt t⟩ rfl p c', h7, runSum_seven]
  rfl

end Cert.ReferenceIdeal.Hand

end
-- ==== Proof.RefArray.lean ====
/-
  The reference's result array and run.

  The output window's block at grid point t = 8·i + j is rows 512·i … 512·i + 511 of the [16384, 1024] result matrix,
  all 1024 columns; it is written back only after the last hidden tile (j = 7). If what the body leaves in that block
  at those points is the feed-forward result of row tile i, then the 32 written blocks tile the matrix (row r lies in
  the block of the point 8·(r / 512) + 7), and the matrix ends holding the result in row-major form: row r is row
  r % 512 of slab r / 512. The host's last step reshapes [16384, 1024] to [32, 512, 1024], which keeps the row-major
  position: (b, p, c) ↦ (512·b + p, c). So the returned array is the specification's function of the five arguments,
  and the arguments themselves end as they were launched.
-/
import proofs.«119623_g2000404091723755_pallasbulk_1092_2_alg».proof.Proof.RefBody
import proofs.«119623_g2000404091723755_pallasbulk_1092_2_alg».proof.Proof.RefBlocks
import proofs.«119623_g2000404091723755_pallasbulk_1092_2_alg».proof.Proof.Spec
import Idealize.ShloMosaic.Lib.Pipeline.Value
import Idealize.ShloMosaic.Lib.ValueLayout
import Idealize.ShloMosaic.Lib.Tactic

noncomputable section

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen Cert.FeedForward

variable (m : (ℓ : Loc nD τ sig) → Buf (Elt Ideal) ℓ) (ρ : Dev nD → PrngReg)

/-- The result in row-major form: row r of the [16384, 1024] matrix is row r % 512 of slab r / 512. -/
def rows (x : SX.Idx → EReal) (w1 : SW1.Idx → EReal) (b1 : SB1.Idx → EReal) (w2 : SW2.Idx → EReal) (b2 : SB2.Idx → EReal) :
    S16384x1024.Idx → EReal :=
  fun i => ffnAt x w1 b1 w2 b2 ⟨(i 0).val / 512, by have := idx2_lt0 i; omega⟩ ⟨(i 0).val % 512, Nat.mod_lt _ (by decide)⟩ (i 1)

/-- Read at row 512·b + p, column c', it is the result of slab b, row p, column c'. -/
theorem rows_apply (x : SX.Idx → EReal) (w1 : SW1.Idx → EReal) (b1 : SB1.Idx → EReal) (w2 : SW2.Idx → EReal) (b2 : SB2.Idx → EReal)
    (i : S16384x1024.Idx) (b : Fin 32) (p : Fin 512) (c' : Fin 1024)
    (h0 : (i 0).val = 512 * b.val + p.val) (h1 : (i 1).val = c'.val) :
    rows x w1 b1 w2 b2 i = ffnAt x w1 b1 w2 b2 b p c' := by
  have hp := p.isLt
  unfold rows
  congr 1
  · exact Fin.ext (by show (i 0).val / 512 = b.val; omega)
  · exact Fin.ext (by show (i 0).val % 512 = p.val; omega)
  · exact Fin.ext h1

/-- The output window's block index at point t is (t / 8, 0), decided over the 256 points. -/
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

/-- An index of the result matrix is in point t's block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3).slice (win0_5.rect t)).set ↔ _
  rw [View.set_slice_whole, Rect.mem_set_unit]
  exact Iff.rfl

/-- What a point that writes back writes is its block of the row-major result, once the body leaves the row tile's
    result there. -/
theorem flushed_of (c : Dev nD) {x : SX.Idx → EReal} {w1 : SW1.Idx → EReal} {b1 : SB1.Idx → EReal} {w2 : SW2.Idx → EReal} {b2 : SB2.Idx → EReal}
    (hout : ∀ t : Fin cfg0.N, t.val % 8 = 7 → ∀ (p : Fin 512) (c' : Fin 1024),
      ((dats m 0 c).after 5 t : Vec Ideal S512x1024 .f32) (ix2 p c') = ffnAt x w1 b1 w2 b2 ⟨t.val / 8, rowTile_lt t⟩ p c')
    (t : Fin cfg0.N) (hf : (cfg0.win 5).flush t = true) :
    (dats m 0 c).flushed 5 t = ((cfg0.win 5).blk t).view.read (Elt Ideal) (rows x w1 b1 w2 b2) := by
  have h7 : t.val % 8 = 7 := (flush0_5 t).mp hf
  have hi := idx5 t
  have key : ∀ y : S512x1024.Idx, ((dats m 0 c).after 5 t : Vec Ideal S512x1024 .f32) y
      = rows x w1 b1 w2 b2 (((cfg0.win 5).blk t).view.emb y) := by
    intro y
    refine ((congrArg ((dats m 0 c).after 5 t : Vec Ideal S512x1024 .f32) (eq_ix2 y)).trans (hout t h7 (y 0) (y 1))).trans ?_
    refine (rows_apply x w1 b1 w2 b2 _ ⟨t.val / 8, rowTile_lt t⟩ (y 0) (y 1) ?_ ?_).symm
    · show win0_5.index t 0 * 512 + 1 * (y 0).val = 512 * (t.val / 8) + (y 0).val
      rw [hi.1]; omega
    · show win0_5.index t 1 * 1024 + 1 * (y 1).val = (y 1).val
      rw [hi.2]; omega
  show (cfg0.win 5).cut (grid0.coords t) ((dats m 0 c).after 5 t) = _
  exact funext key

/-- The result matrix after the run: the 32 written blocks cover it, so it holds the row-major result everywhere. -/
theorem final_of (c : Dev nD) {x : SX.Idx → EReal} {w1 : SW1.Idx → EReal} {b1 : SB1.Idx → EReal} {w2 : SW2.Idx → EReal} {b2 : SB2.Idx → EReal}
    (hout : ∀ t : Fin cfg0.N, t.val % 8 = 7 → ∀ (p : Fin 512) (c' : Fin 1024),
      ((dats m 0 c).after 5 t : Vec Ideal S512x1024 .f32) (ix2 p c') = ffnAt x w1 b1 w2 b2 ⟨t.val / 8, rowTile_lt t⟩ p c') :
    (dats m 0 c).arrAt 5 cfg0.N = rows x w1 b1 w2 b2 := by
  refine (dats m 0 c).arrAt_eq_of_cover 5 (rows x w1 b1 w2 b2) (flushed_of m c hout) (fun i => ?_)
  have hr : (i 0).val < 16384 := idx2_lt0 (n0 := 16384) (n1 := 1024) i
  have hc : (i 1).val < 1024 := idx2_lt1 (n0 := 16384) (n1 := 1024) i
  have hN : cfg0.N = 256 := N_0
  let t : Fin cfg0.N := ⟨8 * ((i 0).val / 512) + 7, by rw [hN]; omega⟩
  have ht : t.val = 8 * ((i 0).val / 512) + 7 := rfl
  have hi := idx5 t
  refine ⟨t, (flush0_5 t).mpr (by rw [ht]; omega), ?_⟩
  rw [mem_blk5]
  intro a
  match a with
  | ⟨0, _⟩ =>
    show win0_5.index t 0 * 512 ≤ (i 0).val ∧ (i 0).val < win0_5.index t 0 * 512 + 512
    rw [hi.1, ht]; omega
  | ⟨1, _⟩ =>
    show win0_5.index t 1 * 1024 ≤ (i 1).val ∧ (i 1).val < win0_5.index t 1 * 1024 + 1024
    rw [hi.2]; omega

/-- The five argument arrays on core c, as the specification's inputs. -/
abbrev X (c : Dev nD) : SX.Idx → EReal := m ((c.tc : Thread nD τ).loc main_arg0)
abbrev W1 (c : Dev nD) : SW1.Idx → EReal := m ((c.tc : Thread nD τ).loc main_arg1)
abbrev B1 (c : Dev nD) : SB1.Idx → EReal := m ((c.tc : Thread nD τ).loc main_arg2)
abbrev W2 (c : Dev nD) : SW2.Idx → EReal := m ((c.tc : Thread nD τ).loc main_arg3)
abbrev B2 (c : Dev nD) : SB2.Idx → EReal := m ((c.tc : Thread nD τ).loc main_arg4)

/-- The row-major result reshaped to [32, 512, 1024] is the specification's array: (b, p, c) and (512·b + p, c) have
    the same row-major position. -/
theorem ffn_eq_rows (x : SX.Idx → EReal) (w1 : SW1.Idx → EReal) (b1 : SB1.Idx → EReal) (w2 : SW2.Idx → EReal) (b2 : SB2.Idx → EReal) :
    (shapeCast S32x512x1024 (rows x w1 b1 w2 b2) shapeCasts_S16384x1024_S32x512x1024 : S32x512x1024.Idx → EReal) = ffn x w1 b1 w2 b2 := by
  funext i
  have h0 : (i 0).val < 32 := (i 0).isLt
  have h1 : (i 1).val < 512 := (i 1).isLt
  have h2 : (i 2).val < 1024 := (i 2).isLt
  refine (shapeCast_apply (rows x w1 b1 w2 b2) shapeCasts_S16384x1024_S32x512x1024 i
    (ix2 ⟨512 * (i 0).val + (i 1).val, by omega⟩ (i 2)) ?_).trans ?_
  · rw [Shape.rowMajor_val_two, Shape.rowMajor_val_three]
    show (512 * (i 0).val + (i 1).val) * 1024 + (i 2).val = ((i 0).val * 512 + (i 1).val) * 1024 + (i 2).val
    omega
  · exact rows_apply x w1 b1 w2 b2 _ (i 0) (i 1) (i 2) rfl rfl

/-- What the host's last step returns: the reshape of the result matrix the region leaves. -/
theorem tail_of (c : Dev nD)
    (hout : ∀ t : Fin cfg0.N, t.val % 8 = 7 → ∀ (p : Fin 512) (c' : Fin 1024),
      ((dats m 0 c).after 5 t : Vec Ideal S512x1024 .f32) (ix2 p c') = ffnAt (X m c) (W1 m c) (B1 m c) (W2 m c) (B2 m c) ⟨t.val / 8, rowTile_lt t⟩ p c') :
    (Pipeline.afterTail₀ cfgs (dats m) 0 (V0 m) [hostOps1] c main_v4 : S32x512x1024.Idx → EReal)
      = ffn (X m c) (W1 m c) (B1 m c) (W2 m c) (B2 m c) := by
  unfold Pipeline.afterTail₀
  show StableHlo.after hostOps1 _ (Proc.devRef .tc main_v4) = _
  after_results
  refine Eq.trans ?_ (ffn_eq_rows (X m c) (W1 m c) (B1 m c) (W2 m c) (B2 m c))
  exact congrArg (fun A => (shapeCast S32x512x1024 (A : S16384x1024.Idx → EReal) shapeCasts_S16384x1024_S32x512x1024 : S32x512x1024.Idx → EReal))
    ((Pipeline.withArrays_arr spec0 launch0.win.arr_inj c _ _ 5).trans (final_of m c hout))

/-- The run: every weakly fair execution ends with the returned array at the specification's function of the five
    arguments, and the arguments unchanged. -/
theorem run_of
    (hout : ∀ (c : Dev nD) (t : Fin cfg0.N), t.val % 8 = 7 → ∀ (p : Fin 512) (c' : Fin 1024),
      ((dats m 0 c).after 5 t : Vec Ideal S512x1024 .f32) (ix2 p c') = ffnAt (X m c) (W1 m c) (B1 m c) (W2 m c) (B2 m c) ⟨t.val / 8, rowTile_lt t⟩ p c') :
    θ_run (defs (F := Ideal)) (onTc (τ := τ) (main (F := Ideal))) ⟨m, fun _ => 0, ρ⟩ (fun r => ∀ c : Dev nD,
      r.2.mem ((c.tc : Thread nD τ).loc main_v4) = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_of m c (hout c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.ReferenceIdeal.Hand

end
-- ==== Proof.lean ====
/-
  A position-wise feed-forward block, y = relu(x·W1 + b1)·W2 + b2, computed two ways.

  The kernel handles a tile of 512 rows per grid point and contracts over all 4096 hidden units at once. The reference
  walks the hidden axis in 8 tiles of 512 units, adding each tile's partial product onto a scratch accumulator and
  adding the output bias after the last tile. Over the extended reals both results are, at row (b, p) and column c,
      Σ_{f < 4096} max (Σ_{d < 1024} x[b,p,d]·W1[d,f] + b1[f]) 0 · W2[f,c] + b2[c]
  (the specification's `ffn`): the reference's grouping of the sum over f into 8 consecutive tiles is a regrouping of a
  finite sum in a commutative monoid, which holds at infinite entries too, so the finiteness of the inputs is not used.
  The three frames: the kernel's two are the pipeline's frame run of a body that loads, computes and stores whole blocks;
  the reference's carries the scratch's running sum in the region invariant from grid point to grid point. The
  idealization rewrote nothing, so it preserves the kernel trivially.
-/
import proofs.«119623_g2000404091723755_pallasbulk_1092_2_alg».proof.Defs
import proofs.«119623_g2000404091723755_pallasbulk_1092_2_alg».proof.Proof.Gen.Kernel
import proofs.«119623_g2000404091723755_pallasbulk_1092_2_alg».proof.Proof.Gen.Kernel.Skeleton
import proofs.«119623_g2000404091723755_pallasbulk_1092_2_alg».proof.Proof.Gen.Kernel.Launch
import proofs.«119623_g2000404091723755_pallasbulk_1092_2_alg».proof.Proof.Gen.Kernel.Points
import proofs.«119623_g2000404091723755_pallasbulk_1092_2_alg».proof.Proof.Gen.Kernel.Frame
import proofs.«119623_g2000404091723755_pallasbulk_1092_2_alg».proof.Proof.Gen.KernelIdeal
import proofs.«119623_g2000404091723755_pallasbulk_1092_2_alg».proof.Proof.Gen.KernelIdeal.Skeleton
import proofs.«119623_g2000404091723755_pallasbulk_1092_2_alg».proof.Proof.Gen.KernelIdeal.Launch
import proofs.«119623_g2000404091723755_pallasbulk_1092_2_alg».proof.Proof.Gen.KernelIdeal.Points
import proofs.«119623_g2000404091723755_pallasbulk_1092_2_alg».proof.Proof.Gen.KernelIdeal.Frame
import proofs.«119623_g2000404091723755_pallasbulk_1092_2_alg».proof.Proof.Gen.ReferenceIdeal
import proofs.«119623_g2000404091723755_pallasbulk_1092_2_alg».proof.Proof.Gen.ReferenceIdeal.Skeleton
import proofs.«119623_g2000404091723755_pallasbulk_1092_2_alg».proof.Proof.Gen.ReferenceIdeal.Launch
import proofs.«119623_g2000404091723755_pallasbulk_1092_2_alg».proof.Proof.Gen.ReferenceIdeal.Points
import proofs.«119623_g2000404091723755_pallasbulk_1092_2_alg».proof.Proof.Gen.ReferenceIdeal.Frame
import proofs.«119623_g2000404091723755_pallasbulk_1092_2_alg».proof.Proof.Gen.Pre_finite_inputs
import proofs.«119623_g2000404091723755_pallasbulk_1092_2_alg».proof.Proof.KernelRun
import proofs.«119623_g2000404091723755_pallasbulk_1092_2_alg».proof.Proof.RefValue
import proofs.«119623_g2000404091723755_pallasbulk_1092_2_alg».proof.Proof.RefArray
import Idealize.ShloMosaic.Adequacy
import Idealize.ShloMosaic.Init

noncomputable section

namespace Cert.Proof

open Idealize.ShloMosaic Idealize.SL.Sem

/-- The word-level kernel's frame and the idealized kernel's: the body touches only its staging buffers. -/
theorem frame_kernel : Cert.frame_Kernel := fun m ρ _ => Cert.Kernel.Gen.frame m ρ
theorem frame_kernelIdeal : Cert.frame_KernelIdeal := fun m ρ _ => Cert.KernelIdeal.Gen.frame m ρ
/-- The reference's frame: its run with the scratch's running sum tracked through the grid. -/
theorem frame_reference : Cert.frame_ReferenceIdeal := fun m ρ _ => Cert.ReferenceIdeal.Hand.frame (F := Ideal) m ρ

/-- From memories agreeing on the five arguments both programs end with the specification's array of those arguments:
    the kernel's by one full contraction per row tile, the reference's by the running sum over the 8 hidden tiles. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun r h c => ⟨(h c).1.trans ?_, (h c).2⟩)
    (Cert.ReferenceIdeal.Hand.run_of m' ρ' (fun c t h7 p c' => Cert.ReferenceIdeal.Hand.out_eq m' c t h7 p c'))
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
